-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x5 : Shape := ⟨2, ![100000, 5]⟩
abbrev S3200000x16 : Shape := ⟨2, ![3200000, 16]⟩
abbrev S3200000x1 : Shape := ⟨2, ![3200000, 1]⟩
abbrev S3200000 : Shape := ⟨1, ![3200000]⟩
abbrev S128x4 : Shape := ⟨2, ![128, 4]⟩
abbrev S128 : Shape := ⟨1, ![128]⟩
abbrev S128x5 : Shape := ⟨2, ![128, 5]⟩
abbrev S128x16 : Shape := ⟨2, ![128, 16]⟩
abbrev S32x128 : Shape := ⟨2, ![32, 128]⟩
abbrev S32 : Shape := ⟨1, ![32]⟩
abbrev S4x32 : Shape := ⟨2, ![4, 32]⟩
abbrev S4 : Shape := ⟨1, ![4]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S3200000x16 : S_.BroadcastsInDim S3200000x16 (![] : Fin 0 → Fin S3200000x16.rank)
  reducesTo_S3200000x16_S_d0_1 : S3200000x16.ReducesTo [0, 1] S_
  bcast_S_S3200000x1 : S_.BroadcastsInDim S3200000x1 (![] : Fin 0 → Fin S3200000x1.rank)
  reducesTo_S3200000x1_S_d0_1 : S3200000x1.ReducesTo [0, 1] S_
  bcast_S_S128x4 : S_.BroadcastsInDim S128x4 (![] : Fin 0 → Fin S128x4.rank)
  reducesTo_S128x4_S_d0_1 : S128x4.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S128x16 : S_.BroadcastsInDim S128x16 (![] : Fin 0 → Fin S128x16.rank)
  reducesTo_S128x16_S_d0_1 : S128x16.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S4x32 : S_.BroadcastsInDim S4x32 (![] : Fin 0 → Fin S4x32.rank)
  reducesTo_S4x32_S_d0_1 : S4x32.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S4x32 .f32) (main_arg14 : FVec F S4 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S4x32 .f32 := Host.absf main_arg13
  let main_cst_22 : FVec F S_ .f32 := constant S_ .f32 0x7F800000#32
  let main_v60 : FVec F S4x32 .f32 := broadcastInDim S4x32 ![] bcast_S_S4x32 main_cst_22
  let main_v61 : IVec S4x32 1 := cmpf .olt main_v59 main_v60
  let main_c_23 : IVec S_ 1 := constantI S_ 1 1#1
  let main_v62 : IVec S_ 1 := (fun x v => Host.reduce IntOp.andi x v reducesTo_S4x32_S_d0_1 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg8 : FVec F S128 .f32) (main_arg9 : FVec F S128x16 .f32) (main_arg10 : FVec F S128 .f32) (main_arg11 : FVec F S32x128 .f32) (main_arg12 : FVec F S32 .f32) (main_arg13 : FVec F S4x32 .f32) (main_arg14 : FVec F S4 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg9
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S32x128 .f32 := Host.absf main_arg11
  let main_cst_18 : FVec F S_ .f32 := constant S_ .f32 0x7F800000#32
  let main_v50 : FVec F S32x128 .f32 := broadcastInDim S32x128 ![] bcast_S_S32x128 main_cst_18
  fn_part3 (F := F) main_arg12 main_arg13 main_arg14 main_v48 main_v49 main_v50

def fn_part1 {F : FTy → Type} [FloatOps F] (main_arg5 : FVec F S128x4 .f32) (main_arg6 : FVec F S128 .f32) (main_arg7 : FVec F S128x5 .f32) (main_arg8 : FVec F S128 .f32) (main_arg9 : FVec F S128x16 .f32) (main_arg10 : FVec F S128 .f32) (main_arg11 : FVec F S32x128 .f32) (main_arg12 : FVec F S32 .f32) (main_arg13 : FVec F S4x32 .f32) (main_arg14 : FVec F S4 .f32) (main_v13 : IVec S_ 1) (main_v16 : IVec S3200000x1 1) : IVec S_ 1 :=
  let main_c_5 : IVec S_ 1 := constantI S_ 1 1#1
  let main_v17 : IVec S_ 1 := (fun x v => Host.reduce IntOp.andi x v reducesTo_S3200000x1_S_d0_1 h_S_) main_v16 main_c_5
  let main_v18 : IVec S_ 1 := andi main_v13 main_v17
  let main_v19 : FVec F S128x4 .f32 := Host.absf main_arg5
  let main_cst_6 : FVec F S_ .f32 := constant S_ .f32 0x7F800000#32
  let main_v20 : FVec F S128x4 .f32 := broadcastInDim S128x4 ![] bcast_S_S128x4 main_cst_6
  let main_v21 : IVec S128x4 1 := cmpf .olt main_v19 main_v20
  let main_c_7 : IVec S_ 1 := constantI S_ 1 1#1
  let main_v22 : IVec S_ 1 := (fun x v => Host.reduce IntOp.andi x v reducesTo_S128x4_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x5 .f32 := Host.absf main_arg7
  let main_cst_10 : FVec F S_ .f32 := constant S_ .f32 0x7F800000#32
  let main_v30 : FVec F S128x5 .f32 := broadcastInDim S128x5 ![] bcast_S_S128x5 main_cst_10
  let main_v31 : IVec S128x5 1 := cmpf .olt main_v29 main_v30
  let main_c_11 : IVec S_ 1 := constantI S_ 1 1#1
  let main_v32 : IVec S_ 1 := (fun x v => Host.reduce IntOp.andi x v reducesTo_S128x5_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x4 .f32) (main_arg1 : FVec F S100000x5 .f32) (main_arg2 : FVec F S3200000x16 .f32) (main_arg3 : FVec F S3200000x1 .f32) (main_arg4 : IVec S3200000 32) (main_arg5 : FVec F S128x4 .f32) (main_arg6 : FVec F S128 .f32) (main_arg7 : FVec F S128x5 .f32) (main_arg8 : FVec F S128 .f32) (main_arg9 : FVec F S128x16 .f32) (main_arg10 : FVec F S128 .f32) (main_arg11 : FVec F S32x128 .f32) (main_arg12 : FVec F S32 .f32) (main_arg13 : FVec F S4x32 .f32) (main_arg14 : FVec F S4 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S3200000x16 .f32 := Host.absf main_arg2
  let main_cst_2 : FVec F S_ .f32 := constant S_ .f32 0x7F800000#32
  let main_v10 : FVec F S3200000x16 .f32 := broadcastInDim S3200000x16 ![] bcast_S_S3200000x16 main_cst_2
  let main_v11 : IVec S3200000x16 1 := cmpf .olt main_v9 main_v10
  let main_c_3 : IVec S_ 1 := constantI S_ 1 1#1
  let main_v12 : IVec S_ 1 := (fun x v => Host.reduce IntOp.andi x v reducesTo_S3200000x16_S_d0_1 h_S_) main_v11 main_c_3
  let main_v13 : IVec S_ 1 := andi main_v8 main_v12
  let main_v14 : FVec F S3200000x1 .f32 := Host.absf main_arg3
  let main_cst_4 : FVec F S_ .f32 := constant S_ .f32 0x7F800000#32
  let main_v15 : FVec F S3200000x1 .f32 := broadcastInDim S3200000x1 ![] bcast_S_S3200000x1 main_cst_4
  let main_v16 : IVec S3200000x1 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x4 : Shape := ⟨2, ![100000, 4]⟩
abbrev S100000x5 : Shape := ⟨2, ![100000, 5]⟩
abbrev S3200000x16 : Shape := ⟨2, ![3200000, 16]⟩
abbrev S3200000x1 : Shape := ⟨2, ![3200000, 1]⟩
abbrev S3200000 : Shape := ⟨1, ![3200000]⟩
abbrev S128x4 : Shape := ⟨2, ![128, 4]⟩
abbrev S128 : Shape := ⟨1, ![128]⟩
abbrev S128x5 : Shape := ⟨2, ![128, 5]⟩
abbrev S128x16 : Shape := ⟨2, ![128, 16]⟩
abbrev S32x128 : Shape := ⟨2, ![32, 128]⟩
abbrev S32 : Shape := ⟨1, ![32]⟩
abbrev S4x32 : Shape := ⟨2, ![4, 32]⟩
abbrev S4 : Shape := ⟨1, ![4]⟩
abbrev S12800x16 : Shape := ⟨2, ![12800, 16]⟩
abbrev S12800x1 : Shape := ⟨2, ![12800, 1]⟩
abbrev S_ : Shape := ⟨0, ![]⟩
abbrev S100000x16 : Shape := ⟨2, ![100000, 16]⟩
abbrev S16x128 : Shape := ⟨2, ![16, 128]⟩
abbrev S128x32 : Shape := ⟨2, ![128, 32]⟩
abbrev S32x4 : Shape := ⟨2, ![32, 4]⟩
abbrev S1x128 : Shape := ⟨2, ![1, 128]⟩
abbrev S1x32 : Shape := ⟨2, ![1, 32]⟩
abbrev S1x4 : Shape := ⟨2, ![1, 4]⟩
abbrev S10000x16 : Shape := ⟨2, ![10000, 16]⟩
abbrev S10000x4 : Shape := ⟨2, ![10000, 4]⟩
abbrev S10000x128 : Shape := ⟨2, ![10000, 128]⟩
abbrev S10000x32 : Shape := ⟨2, ![10000, 32]⟩
abbrev S10000 : Shape := ⟨1, ![10000]⟩
abbrev S10000x1 : Shape := ⟨2, ![10000, 1]⟩

abbrev nBuf : Space → Nat
  | .hbm => 27
  | .vmem => 16
  | .smem => 0
  | _ => 0

abbrev bufTy : (tb : Table) → Fin (tcTables nBuf tb) → BufTy
  | .hbm, ⟨0, _⟩ => ⟨S100000x4, .f32⟩
  | .hbm, ⟨1, _⟩ => ⟨S100000x5, .f32⟩
  | .hbm, ⟨2, _⟩ => ⟨S3200000x16, .f32⟩
  | .hbm, ⟨3, _⟩ => ⟨S3200000x1, .f32⟩
  | .hbm, ⟨4, _⟩ => ⟨S3200000, .i32⟩
  | .hbm, ⟨5, _⟩ => ⟨S128x4, .f32⟩
  | .hbm, ⟨6, _⟩ => ⟨S128, .f32⟩
  | .hbm, ⟨7, _⟩ => ⟨S128x5, .f32⟩
  | .hbm, ⟨8, _⟩ => ⟨S128, .f32⟩
  | .hbm, ⟨9, _⟩ => ⟨S128x16, .f32⟩
  | .hbm, ⟨10, _⟩ => ⟨S128, .f32⟩
  | .hbm, ⟨11, _⟩ => ⟨S32x128, .f32⟩
  | .hbm, ⟨12, _⟩ => ⟨S32, .f32⟩
  | .hbm, ⟨13, _⟩ => ⟨S4x32, .f32⟩
  | .hbm, ⟨14, _⟩ => ⟨S4, .f32⟩
  | .hbm, ⟨15, _⟩ => ⟨S3200000x16, .f32⟩
  | .hbm, ⟨16, _⟩ => ⟨S_, .f32⟩
  | .hbm, ⟨17, _⟩ => ⟨S100000x16, .f32⟩
  | .hbm, ⟨18, _⟩ => ⟨S3200000x1, .i32⟩
  | .hbm, ⟨19, _⟩ => ⟨S100000x16, .f32⟩
  | .hbm, ⟨20, _⟩ => ⟨S16x128, .f32⟩
  | .hbm, ⟨21, _⟩ => ⟨S128x32, .f32⟩
  | .hbm, ⟨22, _⟩ => ⟨S32x4, .f32⟩
  | .hbm, ⟨23, _⟩ => ⟨S1x128, .f32⟩
  | .hbm, ⟨24, _⟩ => ⟨S1x32, .f32⟩
  | .hbm, ⟨25, _⟩ => ⟨S1x4, .f32⟩
  | .hbm, ⟨26, _⟩ => ⟨S100000x4, .f32⟩
  | .local _ .vmem, ⟨0, _⟩ => ⟨S12800x16, .f32⟩
  | .local _ .vmem, ⟨1, _⟩ => ⟨S12800x16, .f32⟩
  | .local _ .vmem, ⟨2, _⟩ => ⟨S12800x1, .f32⟩
  | .local _ .vmem, ⟨3, _⟩ => ⟨S12800x1, .f32⟩
  | .local _ .vmem, ⟨4, _⟩ => ⟨S12800x16, .f32⟩
  | .local _ .vmem, ⟨5, _⟩ => ⟨S12800x16, .f32⟩
  | .local _ .vmem, ⟨6, _⟩ => ⟨S10000x16, .f32⟩
  | .local _ .vmem, ⟨7, _⟩ => ⟨S10000x16, .f32⟩
  | .local _ .vmem, ⟨8, _⟩ => ⟨S16x128, .f32⟩
  | .local _ .vmem, ⟨9, _⟩ => ⟨S1x128, .f32⟩
  | .local _ .vmem, ⟨10, _⟩ => ⟨S128x32, .f32⟩
  | .local _ .vmem, ⟨11, _⟩ => ⟨S1x32, .f32⟩
  | .local _ .vmem, ⟨12, _⟩ => ⟨S32x4, .f32⟩
  | .local _ .vmem, ⟨13, _⟩ => ⟨S1x4, .f32⟩
  | .local _ .vmem, ⟨14, _⟩ => ⟨S10000x4, .f32⟩
  | .local _ .vmem, ⟨15, _⟩ => ⟨S10000x4, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S12800x1_S12800x1_0_0 : ∀ a, (![0, 0] : Fin 2 → Nat) a + S12800x1.size a ≤ S12800x1.size a
  h_S12800x1 : 0 < S12800x1.numel
  inb_S12800x16_S12800x16_0_0 : ∀ a, (![0, 0] : Fin 2 → Nat) a + S12800x16.size a ≤ S12800x16.size a
  h_S12800x16 : 0 < S12800x16.numel
  broadcasts_S12800x1_S12800x16 : S12800x1.Broadcasts S12800x16
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  transposes_S128x16_S16x128_1_0 : S128x16.Transposes [1, 0] S16x128
  transposes_S32x128_S128x32_1_0 : S32x128.Transposes [1, 0] S128x32
  transposes_S4x32_S32x4_1_0 : S4x32.Transposes [1, 0] S32x4
  shapeCasts_S128_S1x128 : S128.ShapeCasts S1x128
  shapeCasts_S32_S1x32 : S32.ShapeCasts S1x32
  shapeCasts_S4_S1x4 : S4.ShapeCasts S1x4
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  reduces_S10000x4_S10000 : S10000x4.Reduces [1] S10000
  shapeCasts_S10000_S10000x1 : S10000.ShapeCasts S10000x1
  broadcasts_S10000x1_S10000x4 : S10000x1.Broadcasts S10000x4
  inb_S10000x4_S10000x4_0_0 : ∀ a, (![0, 0] : Fin 2 → Nat) a + S10000x4.size a ≤ S10000x4.size a
  h_S10000x4 : 0 < S10000x4.numel
  scatter_S100000x16_S3200000x1_S3200000x16_1_0_0_1_wf : ScatterDims.WF S100000x16 S3200000x1 S3200000x16 [1] [0] [0] 1
  dot_S10000x16_S16x128_S10000x128_1_0_0_1_n_n_wf : DotDims.WF S10000x16 S16x128 S10000x128 [1] [0] [0] [1] [] []
  dot_S10000x128_S128x32_S10000x32_1_0_0_1_n_n_wf : DotDims.WF S10000x128 S128x32 S10000x32 [1] [0] [0] [1] [] []
  dot_S10000x32_S32x4_S10000x4_1_0_0_1_n_n_wf : DotDims.WF S10000x32 S32x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x16.size a ≤ S3200000x16.size a
  hwx0_0 : ∀ i : grid0.Coords, EltTy.bits .f32 = 32 ∨ (Rect.block (s := S3200000x16) S12800x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S3200000x1.size a
  hwx0_1 : ∀ i : grid0.Coords, EltTy.bits .f32 = 32 ∨ (Rect.block (s := S3200000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x16.size a ≤ S3200000x16.size a
  hwx0_2 : ∀ i : grid0.Coords, EltTy.bits .f32 = 32 ∨ (Rect.block (s := S3200000x16) S12800x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x4.size a ≤ S32x4.size a
  hwx1_5 : ∀ i : grid1.Coords, EltTy.bits .f32 = 32 ∨ (Rect.block (s := S32x4) S32x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4.size a ≤ S1x4.size a
  hwx1_6 : ∀ i : grid1.Coords, EltTy.bits .f32 = 32 ∨ (Rect.block (s := S1x4) S1x4.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x4.size a ≤ S100000x4.size a
  hwx1_7 : ∀ i : grid1.Coords, EltTy.bits .f32 = 32 ∨ (Rect.block (s := S100000x4) S10000x4.size (cc1_transform_7 i) (hinb1_7 i)).WholeWords (EltTy.packing .f32)

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf

abbrev win0_0 : Pipeline.Window sig grid0 :=
  Pipeline.Window.ofSpec (Memref.whole main_arg2) S12800x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S12800x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S32x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S10000x4.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x4 : Shape := ⟨2, ![100000, 4]⟩
abbrev S100000x5 : Shape := ⟨2, ![100000, 5]⟩
abbrev S3200000x16 : Shape := ⟨2, ![3200000, 16]⟩
abbrev S3200000x1 : Shape := ⟨2, ![3200000, 1]⟩
abbrev S3200000 : Shape := ⟨1, ![3200000]⟩
abbrev S128x4 : Shape := ⟨2, ![128, 4]⟩
abbrev S128 : Shape := ⟨1, ![128]⟩
abbrev S128x5 : Shape := ⟨2, ![128, 5]⟩
abbrev S128x16 : Shape := ⟨2, ![128, 16]⟩
abbrev S32x128 : Shape := ⟨2, ![32, 128]⟩
abbrev S32 : Shape := ⟨1, ![32]⟩
abbrev S4x32 : Shape := ⟨2, ![4, 32]⟩
abbrev S4 : Shape := ⟨1, ![4]⟩
abbrev S4x128 : Shape := ⟨2, ![4, 128]⟩
abbrev S100000x128 : Shape := ⟨2, ![100000, 128]⟩
abbrev S1x128 : Shape := ⟨2, ![1, 128]⟩
abbrev S_ : Shape := ⟨0, ![]⟩
abbrev S5x128 : Shape := ⟨2, ![5, 128]⟩
abbrev S100000x16 : Shape := ⟨2, ![100000, 16]⟩
abbrev S16x128 : Shape := ⟨2, ![16, 128]⟩
abbrev S128x32 : Shape := ⟨2, ![128, 32]⟩
abbrev S100000x32 : Shape := ⟨2, ![100000, 32]⟩
abbrev S1x32 : Shape := ⟨2, ![1, 32]⟩
abbrev S32x4 : Shape := ⟨2, ![32, 4]⟩
abbrev S1x4 : Shape := ⟨2, ![1, 4]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S100000x5, .f32⟩
  | .hbm, ⟨2, _⟩ => ⟨S3200000x16, .f32⟩
  | .hbm, ⟨3, _⟩ => ⟨S3200000x1, .f32⟩
  | .hbm, ⟨4, _⟩ => ⟨S3200000, .i32⟩
  | .hbm, ⟨5, _⟩ => ⟨S128x4, .f32⟩
  | .hbm, ⟨6, _⟩ => ⟨S128, .f32⟩
  | .hbm, ⟨7, _⟩ => ⟨S128x5, .f32⟩
  | .hbm, ⟨8, _⟩ => ⟨S128, .f32⟩
  | .hbm, ⟨9, _⟩ => ⟨S128x16, .f32⟩
  | .hbm, ⟨10, _⟩ => ⟨S128, .f32⟩
  | .hbm, ⟨11, _⟩ => ⟨S32x128, .f32⟩
  | .hbm, ⟨12, _⟩ => ⟨S32, .f32⟩
  | .hbm, ⟨13, _⟩ => ⟨S4x32, .f32⟩
  | .hbm, ⟨14, _⟩ => ⟨S4, .f32⟩
  | .hbm, ⟨15, _⟩ => ⟨S4x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S5x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S3200000x16, .f32⟩
  | .hbm, ⟨29, _⟩ => ⟨S3200000x16, .f32⟩
  | .hbm, ⟨30, _⟩ => ⟨S_, .f32⟩
  | .hbm, ⟨31, _⟩ => ⟨S100000x16, .f32⟩
  | .hbm, ⟨32, _⟩ => ⟨S3200000x1, .i32⟩
  | .hbm, ⟨33, _⟩ => ⟨S100000x16, .f32⟩
  | .hbm, ⟨34, _⟩ => ⟨S16x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S128x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S32x4, .f32⟩
  | .hbm, ⟨48, _⟩ => ⟨S100000x4, .f32⟩
  | .hbm, ⟨49, _⟩ => ⟨S1x4, .f32⟩
  | .hbm, ⟨50, _⟩ => ⟨S100000x4, .f32⟩
  | .hbm, ⟨51, _⟩ => ⟨S100000x4, .f32⟩
  | .hbm, ⟨52, _⟩ => ⟨S_, .f32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x4, .f32⟩
  | .hbm, ⟨59, _⟩ => ⟨S100000x4, .f32⟩
  | .hbm, ⟨60, _⟩ => ⟨S100000x4, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S100000x4, .f32⟩
  | .hbm, ⟨65, _⟩ => ⟨S100000x4, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_cst : Ref sig .tc := ⟨.hbm, 39, rfl⟩
abbrev main_call1_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  transposes_S128x4_S4x128_1_0 : S128x4.Transposes [1, 0] S4x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x5_S5x128_1_0 : S128x5.Transposes [1, 0] S5x128
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  transposes_S128x16_S16x128_1_0 : S128x16.Transposes [1, 0] S16x128
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S4x32_S32x4_1_0 : S4x32.Transposes [1, 0] S32x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  dot_S100000x4_S4x128_S100000x128_1_0_0_1_n_n_wf : DotDims.WF S100000x4 S4x128 S100000x128 [1] [0] [0] [1] [] []
  dot_S100000x5_S5x128_S100000x128_1_0_0_1_n_n_wf : DotDims.WF S100000x5 S5x128 S100000x128 [1] [0] [0] [1] [] []
  scatter_S100000x16_S3200000x1_S3200000x16_1_0_0_1_wf : ScatterDims.WF S100000x16 S3200000x1 S3200000x16 [1] [0] [0] 1
  dot_S100000x16_S16x128_S100000x128_1_0_0_1_n_n_wf : DotDims.WF S100000x16 S16x128 S100000x128 [1] [0] [0] [1] [] []
  dot_S100000x128_S128x32_S100000x32_1_0_0_1_n_n_wf : DotDims.WF S100000x128 S128x32 S100000x32 [1] [0] [0] [1] [] []
  dot_S100000x32_S32x4_S100000x4_1_0_0_1_n_n_wf : DotDims.WF S100000x32 S32x4 S100000x4 [1] [0] [0] [1] [] []

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf

class Facts : Prop extends Facts₀ where

variable [Facts]
-- ==== Proof.KernelRun.lean ====
/-
  The run of the two-call program with its result array named.

  The program is three segments: the edge-scaling call, a stretch of host operations (the scatter-sum of the scaled
  edge messages onto their destination nodes, three weight transposes, three bias reshapes), and the node-head call.
  Every weakly fair execution terminates, and in the final memory the result array holds what the second call's
  write-backs leave of the buffer contents at its entry, while the fifteen argument arrays hold what they held at launch.
  The buffer contents at the segment boundaries are the fold through the segments: launch memory, then the first call's
  arrays replaced by what its write-backs leave, then the host operations applied, then the second call's arrays.
-/
import proofs.«140631_j21861383536723_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and every argument array ends as launched. -/
theorem run_main : θ_run defs (onTc (τ := τ) (main (F := F))) ⟨m, fun _ => 0, ρ⟩ (fun r => ∀ c : Dev nD,
      r.2.mem ((c.tc : Thread nD τ).loc main_v10) = W3 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c)⟩)

/-- The result array's buffer at the last boundary is what the node-head call's write-backs leave. -/
theorem W3_result (c : Dev nD) :
    W3 m ρ c (Proc.devRef .tc main_v10) = (dat1 (V2 m ρ) c).arrAt 7 cfg1.N :=
  W3_arr m ρ c 7

end Cert.KernelIdeal.RunValue

end
-- ==== Proof.NodeScores.lean ====
/-
  One node's class probabilities from its aggregated edge features.

  A node carries sixteen aggregated features `a`. Three dense layers follow: sixteen features to 128 hidden units
  with a rectifier, 128 to 32, and 32 to four class scores; the scores are turned into probabilities by a softmax
  that first subtracts the largest score. Everything is on the extended reals, every operation exact, so the only
  choices left are the order of the operands, which is fixed here once:

    hiddenUnits l = max (Σ_p a p · W₁ (p, l) + b₁ l) 0
    middleUnits k = Σ_l hiddenUnits l · W₂ (l, k) + b₂ k
    classScores j = Σ_k middleUnits k · W₃ (k, j) + b₃ j
    topScore      = max (−∞) (the maximum of −∞ and the four scores)
    nodeProbs j   = exp (classScores j − topScore) / Σ_f exp (classScores f − topScore)

  The weight matrices are taken already transposed (inputs along the rows), as both programs hold them.
  `edgeMessages` is the other half of the computation: every edge's sixteen features scaled by the edge's own
  factor, before the messages are summed onto their destination nodes.
-/
import Idealize.ShloMosaic.PureOps.Ideal
import Idealize.ShloMosaic.Lib.ValueIdx

noncomputable section

open scoped BigOperators

namespace Cert.NodeScores

open Idealize.ShloMosaic Idealize.ShloMosaic.ValueIdx

/-- The first layer with its rectifier: `max (Σ_p a p · W (p, l) + b l) 0`. -/
def hiddenUnits (a : Fin 16 → EReal) (W : (⟨2, ![16, 128]⟩ : Shape).Idx → EReal) (b : Fin 128 → EReal) (l : Fin 128) : EReal :=
  max ((∑ p : Fin 16, a p * W (ix2 p l)) + b l) (Ideal.ofBits .f32 0x00000000#32)

/-- The second layer: `Σ_l g l · W (l, k) + b k`. -/
def middleUnits (g : Fin 128 → EReal) (W : (⟨2, ![128, 32]⟩ : Shape).Idx → EReal) (b : Fin 32 → EReal) (k : Fin 32) : EReal :=
  (∑ l : Fin 128, g l * W (ix2 l k)) + b k

/-- The third layer, the four class scores: `Σ_k h k · W (k, j) + b j`. -/
def classScores (h : Fin 32 → EReal) (W : (⟨2, ![32, 4]⟩ : Shape).Idx → EReal) (b : Fin 4 → EReal) (j : Fin 4) : EReal :=
  (∑ k : Fin 32, h k * W (ix2 k j)) + b j

/-- The largest of four scores, taken from −∞, and once more against −∞ (the identity on the extended reals, kept
    because both programs spell it). -/
def topScore (z : Fin 4 → EReal) : EReal :=
  max (Ideal.ofBits .f32 0xFF800000#32) ((Finset.univ : Finset (Fin 4)).fold max (Ideal.ofBits .f32 0xFF800000#32) z)

/-- The softmax of four scores, shifted by their maximum. -/
def softmax4 (z : Fin 4 → EReal) (j : Fin 4) : EReal :=
  Ideal.div (Ideal.exp (z j - topScore z)) (∑ f : Fin 4, Ideal.exp (z f - topScore z))

/-- One node's four class probabilities. -/
def nodeProbs (a : Fin 16 → EReal) (W₁ : (⟨2, ![16, 128]⟩ : Shape).Idx → EReal) (b₁ : Fin 128 → EReal)
    (W₂ : (⟨2, ![128, 32]⟩ : Shape).Idx → EReal) (b₂ : Fin 32 → EReal)
    (W₃ : (⟨2, ![32, 4]⟩ : Shape).Idx → EReal) (b₃ : Fin 4 → EReal) : Fin 4 → EReal :=
  softmax4 (classScores (middleUnits (hiddenUnits a W₁ b₁) W₂ b₂) W₃ b₃)

/-- Every node's probabilities: row `r` of the result is `nodeProbs` of row `r` of the aggregated features. -/
def allNodeProbs (A : (⟨2, ![100000, 16]⟩ : Shape).Idx → EReal) (W₁ : (⟨2, ![16, 128]⟩ : Shape).Idx → EReal) (b₁ : Fin 128 → EReal)
    (W₂ : (⟨2, ![128, 32]⟩ : Shape).Idx → EReal) (b₂ : Fin 32 → EReal)
    (W₃ : (⟨2, ![32, 4]⟩ : Shape).Idx → EReal) (b₃ : Fin 4 → EReal) : (⟨2, ![100000, 4]⟩ : Shape).Idx → EReal :=
  fun i => nodeProbs (fun p => A (ix2 (⟨(i 0).val, idx2_lt0 i⟩ : Fin 100000) p)) W₁ b₁ W₂ b₂ W₃ b₃ (⟨(i 1).val, idx2_lt1 i⟩ : Fin 4)

theorem allNodeProbs_apply (A : (⟨2, ![100000, 16]⟩ : Shape).Idx → EReal) (W₁ : (⟨2, ![16, 128]⟩ : Shape).Idx → EReal) (b₁ : Fin 128 → EReal)
    (W₂ : (⟨2, ![128, 32]⟩ : Shape).Idx → EReal) (b₂ : Fin 32 → EReal)
    (W₃ : (⟨2, ![32, 4]⟩ : Shape).Idx → EReal) (b₃ : Fin 4 → EReal) (r : Fin 100000) (j : Fin 4) :
    allNodeProbs A W₁ b₁ W₂ b₂ W₃ b₃ (ix2 r j) = nodeProbs (fun p => A (ix2 r p)) W₁ b₁ W₂ b₂ W₃ b₃ j := rfl

/-- Every edge's message: its sixteen features, each scaled by the edge's one factor. -/
def edgeMessages (tc : (⟨2, ![3200000, 16]⟩ : Shape).Idx → EReal) (sc : (⟨2, ![3200000, 1]⟩ : Shape).Idx → EReal) :
    (⟨2, ![3200000, 16]⟩ : Shape).Idx → EReal :=
  fun i => sc (ix2 (⟨(i 0).val, idx2_lt0 i⟩ : Fin 3200000) (0 : Fin 1)) * tc i

theorem edgeMessages_apply (tc : (⟨2, ![3200000, 16]⟩ : Shape).Idx → EReal) (sc : (⟨2, ![3200000, 1]⟩ : Shape).Idx → EReal)
    (e : Fin 3200000) (p : Fin 16) : edgeMessages tc sc (ix2 e p) = sc (ix2 e (0 : Fin 1)) * tc (ix2 e p) := rfl

end Cert.NodeScores

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.HeadPayload.lean ====
/-
  What the node-head kernel computes on one block of rows.

  The kernel's body reads a block of 10000 rows of aggregated features, the three transposed weight matrices and the
  three biases (each a single row), and stores one value: three matrix products with their biases added row by row,
  a rectifier after the first, and a row softmax of the four resulting scores. Read at row `q` and class `j` that value
  is `NodeScores.nodeProbs` of row `q` of the block: each product into the zero accumulator is the plain sum over the
  contracted axis, a one-row bias spread over the rows reads its one row, the row maximum and the row sum kept as a
  column and spread back read the fold and the sum over the row's four entries.
-/
import proofs.«140631_j21861383536723_2_alg».proof.Proof.Gen.KernelIdeal.Skeleton
import proofs.«140631_j21861383536723_2_alg».proof.Proof.NodeScores
import proofs.«140631_j21861383536723_2_alg».proof.Proof.LibPlainMatmul
import proofs.«140631_j21861383536723_2_alg».proof.Proof.LibUnitAxes
import proofs.«140631_j21861383536723_2_alg».proof.Proof.LibKeepdims
import Idealize.ShloMosaic.Lib.ValueLayout
import Idealize.ShloMosaic.Lib.Pipeline.Value

noncomputable section

open scoped BigOperators

namespace Cert.KernelIdeal.HeadPayload

open Cert.KernelIdeal Cert.KernelIdeal.Gen Idealize.ShloMosaic Idealize.ShloMosaic.ValueIdx Cert.NodeScores

/-- The first layer on a block: the product with the 16 × 128 weights, the bias row added, the rectifier. -/
def layer1 (x0 : FVec Ideal S10000x16 .f32) (x1 : FVec Ideal S16x128 .f32) (x2 : FVec Ideal S1x128 .f32) : FVec Ideal S10000x128 .f32 :=
  maximumf (addf (matmul dot_S10000x16_S16x128_S10000x128_1_0_0_1_n_n none (shapeCast S10000x16 x0 shapeCasts_S10000x16_S10000x16)
      (shapeCast S16x128 x1 shapeCasts_S16x128_S16x128) (constant S10000x128 .f32 0x00000000#32))
    (broadcastTo S10000x128 (shapeCast S1x128 x2 shapeCasts_S1x128_S1x128) broadcasts_S1x128_S10000x128))
    (broadcast S10000x128 (Scalar.ofBits .f32 0x00000000#32))

/-- The second layer on a block. -/
def layer2 (g : FVec Ideal S10000x128 .f32) (x3 : FVec Ideal S128x32 .f32) (x4 : FVec Ideal S1x32 .f32) : FVec Ideal S10000x32 .f32 :=
  addf (matmul dot_S10000x128_S128x32_S10000x32_1_0_0_1_n_n none g (shapeCast S128x32 x3 shapeCasts_S128x32_S128x32)
      (constant S10000x32 .f32 0x00000000#32))
    (broadcastTo S10000x32 (shapeCast S1x32 x4 shapeCasts_S1x32_S1x32) broadcasts_S1x32_S10000x32)

/-- The third layer on a block: the class scores. -/
def layer3 (h : FVec Ideal S10000x32 .f32) (x5 : FVec Ideal S32x4 .f32) (x6 : FVec Ideal S1x4 .f32) : FVec Ideal S10000x4 .f32 :=
  addf (matmul dot_S10000x32_S32x4_S10000x4_1_0_0_1_n_n none h (shapeCast S32x4 x5 shapeCasts_S32x4_S32x4)
      (constant S10000x4 .f32 0x00000000#32))
    (broadcastTo S10000x4 (shapeCast S1x4 x6 shapeCasts_S1x4_S1x4) broadcasts_S1x4_S10000x4)

/-- The row maximum of a block of scores, kept as a column and spread back over the four classes. -/
def rowTop (z : FVec Ideal S10000x4 .f32) : FVec Ideal S10000x4 .f32 :=
  broadcastTo S10000x4 (shapeCast S10000x1 (maximumf (broadcast S10000 (Scalar.ofBits .f32 0xFF800000#32))
      (multiReduction .maximumf [1] S10000 z 0xFF800000#32 reduces_S10000x4_S10000 (.inl rfl) rfl)) shapeCasts_S10000_S10000x1)
    broadcasts_S10000x1_S10000x4

/-- The row softmax of a block of scores. -/
def rowSoftmax (z : FVec Ideal S10000x4 .f32) : FVec Ideal S10000x4 .f32 :=
  divf (exp (subf z (rowTop z)))
    (broadcastTo S10000x4 (shapeCast S10000x1 (multiReduction .add [1] S10000 (exp (subf z (rowTop z))) 0x00000000#32
      reduces_S10000x4_S10000 (.inl rfl) rfl) shapeCasts_S10000_S10000x1) broadcasts_S10000x1_S10000x4)

/-- The stored value is the three layers followed by the row softmax. -/
theorem pay_eq (x0 : Vec Ideal S10000x16 .f32) (x1 : Vec Ideal S16x128 .f32) (x2 : Vec Ideal S1x128 .f32) (x3 : Vec Ideal S128x32 .f32)
    (x4 : Vec Ideal S1x32 .f32) (x5 : Vec Ideal S32x4 .f32) (x6 : Vec Ideal S1x4 .f32) :
    k1_pay1 x0 x1 x2 x3 x4 x5 x6 = rowSoftmax (layer3 (layer2 (layer1 x0 x1 x2) x3 x4) x5 x6) := rfl

/-- The first layer at row `q`, unit `l`. -/
theorem layer1_apply (x0 : FVec Ideal S10000x16 .f32) (x1 : FVec Ideal S16x128 .f32) (x2 : FVec Ideal S1x128 .f32) (q : Fin 10000) (l : Fin 128) :
    layer1 x0 x1 x2 (ix2 q l) = hiddenUnits (fun p => x0 (ix2 q p)) x1 (fun l => x2 (ix2 (0 : Fin 1) l)) l := by
  unfold layer1 hiddenUnits
  refine congrArg₂ (fun u v : EReal => max u v) (congrArg₂ (fun u v : EReal => u + v) ?_ ?_) rfl
  · refine (matmul_plain_zero_apply _ rfl none _ _ q l).trans ?_
    rw [shapeCast_self, shapeCast_self]
  · refine (broadcastTo_1b_ab_apply _ _ q l).trans ?_
    rw [shapeCast_self]

/-- The second layer at row `q`, unit `k`. -/
theorem layer2_apply (g : FVec Ideal S10000x128 .f32) (x3 : FVec Ideal S128x32 .f32) (x4 : FVec Ideal S1x32 .f32) (q : Fin 10000) (k : Fin 32) :
    layer2 g x3 x4 (ix2 q k) = middleUnits (fun l => g (ix2 q l)) x3 (fun k => x4 (ix2 (0 : Fin 1) k)) k := by
  unfold layer2 middleUnits
  refine congrArg₂ (fun u v : EReal => u + v) ?_ ?_
  · refine (matmul_plain_zero_apply _ rfl none _ _ q k).trans ?_
    rw [shapeCast_self]
  · refine (broadcastTo_1b_ab_apply _ _ q k).trans ?_
    rw [shapeCast_self]

/-- The third layer at row `q`, class `j`. -/
theorem layer3_apply (h : FVec Ideal S10000x32 .f32) (x5 : FVec Ideal S32x4 .f32) (x6 : FVec Ideal S1x4 .f32) (q : Fin 10000) (j : Fin 4) :
    layer3 h x5 x6 (ix2 q j) = classScores (fun k => h (ix2 q k)) x5 (fun j => x6 (ix2 (0 : Fin 1) j)) j := by
  unfold layer3 classScores
  refine congrArg₂ (fun u v : EReal => u + v) ?_ ?_
  · refine (matmul_plain_zero_apply _ rfl none _ _ q j).trans ?_
    rw [shapeCast_self]
  · refine (broadcastTo_1b_ab_apply _ _ q j).trans ?_
    rw [shapeCast_self]

/-- The spread-back row maximum at row `q` is `top` of the row's four scores, whatever the class. -/
theorem rowTop_apply (z : FVec Ideal S10000x4 .f32) (q : Fin 10000) (j : Fin 4) :
    rowTop z (ix2 q j) = topScore (fun f => z (ix2 q f)) := by
  unfold rowTop topScore
  refine (Cert.LibKeepdims.broadcastTo_a1_ac_apply _ _ q j).trans ?_
  refine (Cert.LibKeepdims.shapeCast_a_a1_apply _ _ q 0).trans ?_
  refine congrArg (max (Ideal.ofBits .f32 0xFF800000#32)) ?_
  exact Cert.LibUnitAxes.multiReduction_maximumf_lastAxis_apply z 0xFF800000#32 reduces_S10000x4_S10000 (.inl rfl) rfl q

/-- The row softmax at row `q`, class `j`. -/
theorem rowSoftmax_apply (z : FVec Ideal S10000x4 .f32) (q : Fin 10000) (j : Fin 4) :
    rowSoftmax z (ix2 q j) = softmax4 (fun f => z (ix2 q f)) j := by
  unfold rowSoftmax softmax4
  refine congrArg₂ Ideal.div ?_ ?_
  · show Ideal.exp (z (ix2 q j) - rowTop z (ix2 q j)) = _
    rw [rowTop_apply]
  · refine (Cert.LibKeepdims.rowSum_keepdims_broadcast_apply _ 0x00000000#32 reduces_S10000x4_S10000 (.inl rfl) rfl _ _ q j).trans ?_
    refine Finset.sum_congr rfl fun f _ => ?_
    show Ideal.exp (z (ix2 q f) - rowTop z (ix2 q f)) = _
    rw [rowTop_apply]

/-- The stored value at row `q`, class `j`: one node's probabilities from row `q` of the block. -/
theorem pay_apply (x0 : Vec Ideal S10000x16 .f32) (x1 : Vec Ideal S16x128 .f32) (x2 : Vec Ideal S1x128 .f32) (x3 : Vec Ideal S128x32 .f32)
    (x4 : Vec Ideal S1x32 .f32) (x5 : Vec Ideal S32x4 .f32) (x6 : Vec Ideal S1x4 .f32) (q : Fin 10000) (j : Fin 4) :
    k1_pay1 x0 x1 x2 x3 x4 x5 x6 (ix2 q j)
      = nodeProbs (fun p => x0 (ix2 q p)) x1 (fun l => x2 (ix2 (0 : Fin 1) l)) x3 (fun k => x4 (ix2 (0 : Fin 1) k)) x5
          (fun j => x6 (ix2 (0 : Fin 1) j)) j := by
  rw [pay_eq, rowSoftmax_apply]
  unfold nodeProbs
  refine congrArg (fun z => softmax4 z j) (funext fun f => ?_)
  rw [layer3_apply]
  refine congrArg (fun h => classScores h x5 (fun j => x6 (ix2 (0 : Fin 1) j)) f) (funext fun k => ?_)
  rw [layer2_apply]
  exact congrArg (fun g => middleUnits g x3 (fun k => x4 (ix2 (0 : Fin 1) k)) k) (funext fun l => layer1_apply x0 x1 x2 q l)

end Cert.KernelIdeal.HeadPayload

end
-- ==== Proof.BlocksToArrays.lean ====
/-
  From blocks to whole arrays: what each of the two calls leaves in its result array.

  Both calls cut their arrays into row blocks that tile them: the edge call 250 blocks of 12800 edges, the node call
  10 blocks of 10000 nodes. Grid point `t` reads block `t` of each blocked operand (the small weight and bias
  operands of the node call are a single block, read at every point) and writes back block `t` of the result. Since
  each stored value at a row depends on the same row of the blocked operands only, block `t` of the result is block
  `t` of one whole-array function: every edge's features scaled by its factor for the first call, every node's
  class probabilities for the second. The blocks cover the result array (row `r` lies in block `r / rows per block`),
  so after the last write-back the array is that function. All of it is stated for the buffer contents `V` found at
  the call's entry, whatever they are.
-/
import proofs.«140631_j21861383536723_2_alg».proof.Proof.Gen.KernelIdeal.Frame
import proofs.«140631_j21861383536723_2_alg».proof.Proof.HeadPayload
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.NodeScores
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The edge call -/

/-- The stored value at edge `e` of the block, feature `p`: the edge's factor times the feature. -/
theorem scale_pay_apply (x1 : FVec Ideal S12800x1 .f32) (x0 : FVec Ideal S12800x16 .f32) (e : Fin 12800) (p : Fin 16) :
    k0_pay1 x1 x0 (ix2 e p) = x1 (ix2 e (0 : Fin 1)) * x0 (ix2 e p) := by
  unfold k0_pay1
  exact congrArg (fun u : EReal => u * x0 (ix2 e p)) (Cert.LibKeepdims.broadcastTo_a1_ac_apply x1 broadcasts_S12800x1_S12800x16 e p)

/-- The same as a function of the block's index. -/
theorem scale_pay_fun (x1 : FVec Ideal S12800x1 .f32) (x0 : FVec Ideal S12800x16 .f32) :
    k0_pay1 x1 x0 = fun y : S12800x16.Idx => x1 (ix2 (⟨(y 0).val, idx2_lt0 y⟩ : Fin 12800) (0 : Fin 1)) * x0 y := by
  funext y
  have hy : y = ix2 (⟨(y 0).val, idx2_lt0 y⟩ : Fin 12800) (⟨(y 1).val, idx2_lt1 y⟩ : Fin 16) := eq_ix2 y
  rw [hy]
  exact scale_pay_apply x1 x0 _ _

/-- Every operand of the edge call is blocked along the edges only: at point `t` its block index is `(t, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled messages of the arrays as the call finds them. -/
theorem flushed0_eq (c : Dev nD) (t : Fin cfg0.N) :
    (dat0 V c).flushed 2 t = ((cfg0.win 2).blk t).view.read (Elt Ideal) (edgeMessages (V c main_arg2) (V c main_arg3)) := by
  show (cfg0.win 2).cut (grid0.coords t) ((dat0 V c).after 2 t) = _
  rw [after0_2]
  unfold out0_2
  rw [View.canon_unit_zero hz]
  simp only [View.ld_unit_zero (S := S12800x16) hz, View.ld_unit_zero (S := S12800x1) hz]
  rw [scale_pay_fun]
  obtain ⟨e0, e1, e2, e3, e4, e5⟩ := idx0 t
  funext j
  show FloatOps.mulf (F := Ideal) (φ := .f32) (V c main_arg3 (((cfg0.win 1).blk t).view.emb (ix2 (⟨(j 0).val, _⟩ : Fin 12800) (0 : Fin 1))))
      (V c main_arg2 (((cfg0.win 0).blk t).view.emb j))
    = FloatOps.mulf (F := Ideal) (φ := .f32) (V c main_arg3 (ix2 (⟨((((cfg0.win 2).blk t).view.emb j) 0).val, _⟩ : Fin 3200000) (0 : Fin 1)))
      (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 12800 + 1 * (j 0).val = win0_2.index t (0 : Fin 2) * 12800 + 1 * (j 0).val; omega
    | ⟨1, _⟩ => show win0_0.index t (1 : Fin 2) * 16 + 1 * (j 1).val = win0_2.index t (1 : Fin 2) * 16 + 1 * (j 1).val; omega
  have h1 : ((cfg0.win 1).blk t).view.emb (ix2 (⟨(j 0).val, idx2_lt0 j⟩ : Fin 12800) (0 : Fin 1))
      = ix2 (⟨((((cfg0.win 2).blk t).view.emb j) 0).val, idx2_lt0 _⟩ : Fin 3200000) (0 : Fin 1) := by
    funext a; apply Fin.ext
    match a with
    | ⟨0, _⟩ => show win0_1.index t (0 : Fin 2) * 12800 + 1 * (j 0).val = win0_2.index t (0 : Fin 2) * 12800 + 1 * (j 0).val; omega
    | ⟨1, _⟩ => show win0_1.index t (1 : Fin 2) * 1 + 1 * 0 = 0; omega
  rw [h0, h1]

/-- An edge row is in point `t`'s block of the result iff each coordinate is in the block's range. -/
theorem mem_blk0 (t : Fin cfg0.N) (i : S3200000x16.Idx) :
    i ∈ ((cfg0.win 2).blk t).view.set ↔ ∀ a : Fin 2, win0_2.index t a * S12800x16.size a ≤ (i a).val ∧ (i a).val < win0_2.index t a * S12800x16.size a + S12800x16.size a := by
  show i ∈ ((View.whole main_v0).slice (win0_2.rect t)).set ↔ _
  rw [View.set_slice_whole, Rect.mem_set_unit]
  exact Iff.rfl

/-- Every edge row is in the block of the point `row / 12800`. -/
theorem cover0 (i : S3200000x16.Idx) : ∃ t : Fin cfg0.N, (cfg0.win 2).flush t = true ∧ i ∈ ((cfg0.win 2).blk t).view.set := by
  have hi0 : (i 0).val < 3200000 := (i 0).isLt
  have hi1 : (i 1).val < 16 := (i 1).isLt
  have hN : grid0.N = 250 := N_0
  have ht : (i 0).val / 12800 < grid0.N := by rw [hN]; omega
  obtain ⟨e0, e1, e2, e3, e4, e5⟩ := idx0 ⟨(i 0).val / 12800, ht⟩
  refine ⟨⟨(i 0).val / 12800, ht⟩, flush0_2 _, ?_⟩
  rw [mem_blk0]
  intro a
  match a with
  | ⟨0, _⟩ =>
    show win0_2.index ⟨(i 0).val / 12800, ht⟩ (0 : Fin 2) * 12800 ≤ (i 0).val ∧ (i 0).val < win0_2.index ⟨(i 0).val / 12800, ht⟩ (0 : Fin 2) * 12800 + 12800
    rw [e4]; show (i 0).val / 12800 * 12800 ≤ (i 0).val ∧ (i 0).val < (i 0).val / 12800 * 12800 + 12800; omega
  | ⟨1, _⟩ =>
    show win0_2.index ⟨(i 0).val / 12800, ht⟩ (1 : Fin 2) * 16 ≤ (i 1).val ∧ (i 1).val < win0_2.index ⟨(i 0).val / 12800, ht⟩ (1 : Fin 2) * 16 + 16
    rw [e5]; omega

/-- After the edge call its result array holds every edge's scaled message. -/
theorem final0 (c : Dev nD) : (dat0 V c).arrAt 2 cfg0.N = edgeMessages (V c main_arg2) (V c main_arg3) :=
  (dat0 V c).arrAt_eq_of_cover 2 (edgeMessages (V c main_arg2) (V c main_arg3)) (fun t _ => flushed0_eq V c t) cover0

/-! ## The node call -/

/-- The stored value as a function of the block's index: node `q` of the block, class `j`. -/
theorem head_pay_fun (x0 : Vec Ideal S10000x16 .f32) (x1 : Vec Ideal S16x128 .f32) (x2 : Vec Ideal S1x128 .f32) (x3 : Vec Ideal S128x32 .f32)
    (x4 : Vec Ideal S1x32 .f32) (x5 : Vec Ideal S32x4 .f32) (x6 : Vec Ideal S1x4 .f32) :
    k1_pay1 x0 x1 x2 x3 x4 x5 x6 = fun y : S10000x4.Idx =>
      nodeProbs (fun p => x0 (ix2 (⟨(y 0).val, idx2_lt0 y⟩ : Fin 10000) p)) x1 (fun l => x2 (ix2 (0 : Fin 1) l)) x3
        (fun k => x4 (ix2 (0 : Fin 1) k)) x5 (fun j => x6 (ix2 (0 : Fin 1) j)) (⟨(y 1).val, idx2_lt1 y⟩ : Fin 4) := by
  funext y
  have hy : y = ix2 (⟨(y 0).val, idx2_lt0 y⟩ : Fin 10000) (⟨(y 1).val, idx2_lt1 y⟩ : Fin 4) := eq_ix2 y
  rw [hy]
  exact Cert.KernelIdeal.HeadPayload.pay_apply x0 x1 x2 x3 x4 x5 x6 _ _

/-- The node features and the result are blocked along the nodes, block index `(t, 0)` at point `t`; each weight and
    bias operand is one block, index `(0, 0)` at every point. -/
theorem idx1 : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The block of the first weight operand at any point is the whole array. -/
theorem blk1_1 (c : Dev nD) (t : Fin cfg1.N) : iblk1 V c 1 t = V c main_v4 := by
  obtain ⟨-, -, -, -, e0, e1, -⟩ := idx1 t
  funext y
  show V c main_v4 (((cfg1.win 1).blk t).view.emb y) = V c main_v4 y
  refine congrArg (V c main_v4) (funext fun a => Fin.ext ?_)
  match a with
  | ⟨0, _⟩ => show win1_1.index t (0 : Fin 2) * 16 + 1 * (y 0).val = (y 0).val; omega
  | ⟨1, _⟩ => show win1_1.index t (1 : Fin 2) * 128 + 1 * (y 1).val = (y 1).val; omega

theorem blk1_2 (c : Dev nD) (t : Fin cfg1.N) : iblk1 V c 2 t = V c main_v7 := by
  obtain ⟨-, -, -, -, -, -, e0, e1, -⟩ := idx1 t
  funext y
  show V c main_v7 (((cfg1.win 2).blk t).view.emb y) = V c main_v7 y
  refine congrArg (V c main_v7) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem blk1_3 (c : Dev nD) (t : Fin cfg1.N) : iblk1 V c 3 t = V c main_v5 := by
  obtain ⟨-, -, -, -, -, -, -, -, e0, e1, -⟩ := idx1 t
  funext y
  show V c main_v5 (((cfg1.win 3).blk t).view.emb y) = V c main_v5 y
  refine congrArg (V c main_v5) (funext fun a => Fin.ext ?_)
  match a with
  | ⟨0, _⟩ => show win1_3.index t (0 : Fin 2) * 128 + 1 * (y 0).val = (y 0).val; omega
  | ⟨1, _⟩ => show win1_3.index t (1 : Fin 2) * 32 + 1 * (y 1).val = (y 1).val; omega

theorem blk1_4 (c : Dev nD) (t : Fin cfg1.N) : iblk1 V c 4 t = V c main_v8 := by
  obtain ⟨-, -, -, -, -, -, -, -, -, -, e0, e1, -⟩ := idx1 t
  funext y
  show V c main_v8 (((cfg1.win 4).blk t).view.emb y) = V c main_v8 y
  refine congrArg (V c main_v8) (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

theorem blk1_5 (c : Dev nD) (t : Fin cfg1.N) : iblk1 V c 5 t = V c main_v6 := by
  obtain ⟨-, -, -, -, -, -, -, -, -, -, -, -, e0, e1, -⟩ := idx1 t
  funext y
  show V c main_v6 (((cfg1.win 5).blk t).view.emb y) = V c main_v6 y
  refine congrArg (V c main_v6) (funext fun a => Fin.ext ?_)
  match a with
  | ⟨0, _⟩ => show win1_5.index t (0 : Fin 2) * 32 + 1 * (y 0).val = (y 0).val; omega
  | ⟨1, _⟩ => show win1_5.index t (1 : Fin 2) * 4 + 1 * (y 1).val = (y 1).val; omega

theorem blk1_6 (c : Dev nD) (t : Fin cfg1.N) : iblk1 V c 6 t = V c main_v9 := by
  obtain ⟨-, -, -, -, -, -, -, -, -, -, -, -, -, -, e0, e1⟩ := idx1 t
  funext y
  show V c main_v9 (((cfg1.win 6).blk t).view.emb y) = V c main_v9 y
  refine congrArg (V c main_v9) (funext fun a => Fin.ext ?_)
  match a with
  | ⟨0, _⟩ => show win1_6.index t (0 : Fin 2) * 1 + 1 * (y 0).val = (y 0).val; omega
  | ⟨1, _⟩ => show win1_6.index t (1 : Fin 2) * 4 + 1 * (y 1).val = (y 1).val; omega

/-- Row `y` of the node-feature block at point `t` is row `10000 t + y` of the array. -/
theorem blk1_0 (c : Dev nD) (t : Fin cfg1.N) (y : S10000x16.Idx) (i : S100000x16.Idx)
    (h0 : (i 0).val = t.val * 10000 + (y 0).val) (h1 : (i 1).val = (y 1).val) :
    (iblk1 V c 0 t : Vec Ideal S10000x16 .f32) y = V c main_v3 i := by
  obtain ⟨e0, e1, -⟩ := idx1 t
  show V c main_v3 (((cfg1.win 0).blk t).view.emb y) = V c main_v3 i
  refine congrArg (V c main_v3) (funext fun a => Fin.ext ?_)
  match a with
  | ⟨0, _⟩ => show win1_0.index t (0 : Fin 2) * 10000 + 1 * (y 0).val = (i 0).val; omega
  | ⟨1, _⟩ => show win1_0.index t (1 : Fin 2) * 16 + 1 * (y 1).val = (i 1).val; omega

/-- What point `t` writes back is block `t` of every node's probabilities, of the arrays as the call finds them. -/
theorem flushed1_eq (c : Dev nD) (t : Fin cfg1.N) :
    (dat1 V c).flushed 7 t = ((cfg1.win 7).blk t).view.read (Elt Ideal)
      (allNodeProbs (V c main_v3) (V c main_v4) (fun l => V c main_v7 (ix2 (0 : Fin 1) l)) (V c main_v5)
        (fun k => V c main_v8 (ix2 (0 : Fin 1) k)) (V c main_v6) (fun j => V c main_v9 (ix2 (0 : Fin 1) j))) := by
  show (cfg1.win 7).cut (grid1.coords t) ((dat1 V c).after 7 t) = _
  rw [after1_7]
  unfold out1_7
  rw [View.canon_unit_zero hz]
  simp only [View.ld_unit_zero (S := S10000x16) hz, View.ld_unit_zero (S := S16x128) hz, View.ld_unit_zero (S := S1x128) hz,
    View.ld_unit_zero (S := S128x32) hz, View.ld_unit_zero (S := S1x32) hz, View.ld_unit_zero (S := S32x4) hz,
    View.ld_unit_zero (S := S1x4) hz]
  rw [head_pay_fun, blk1_1, blk1_2, blk1_3, blk1_4, blk1_5, blk1_6]
  obtain ⟨e0, e1, e2, e3, -⟩ := idx1 t
  funext j
  show nodeProbs (fun p => (iblk1 V c 0 t : Vec Ideal S10000x16 .f32) (ix2 (⟨(j 0).val, _⟩ : Fin 10000) p)) (V c main_v4) (fun l => V c main_v7 (ix2 (0 : Fin 1) l)) (V c main_v5)
        (fun k => V c main_v8 (ix2 (0 : Fin 1) k)) (V c main_v6) (fun j => V c main_v9 (ix2 (0 : Fin 1) j)) (⟨(j 1).val, _⟩ : Fin 4)
    = nodeProbs (fun p => V c main_v3 (ix2 (⟨((((cfg1.win 7).blk t).view.emb j) 0).val, _⟩ : Fin 100000) p)) (V c main_v4) (fun l => V c main_v7 (ix2 (0 : Fin 1) l)) (V c main_v5)
        (fun k => V c main_v8 (ix2 (0 : Fin 1) k)) (V c main_v6) (fun j => V c main_v9 (ix2 (0 : Fin 1) j)) (⟨((((cfg1.win 7).blk t).view.emb j) 1).val, _⟩ : Fin 4)
  have ha : (fun p : Fin 16 => (iblk1 V c 0 t : Vec Ideal S10000x16 .f32) (ix2 (⟨(j 0).val, idx2_lt0 j⟩ : Fin 10000) p))
      = fun p : Fin 16 => V c main_v3 (ix2 (⟨((((cfg1.win 7).blk t).view.emb j) 0).val, idx2_lt0 _⟩ : Fin 100000) p) :=
    funext fun p => blk1_0 V c t _ _
      (by show win1_7.index t (0 : Fin 2) * 10000 + 1 * (j 0).val = t.val * 10000 + (j 0).val; omega) rfl
  have hj : (⟨(j 1).val, idx2_lt1 j⟩ : Fin 4) = ⟨((((cfg1.win 7).blk t).view.emb j) 1).val, idx2_lt1 _⟩ :=
    Fin.ext (by show (j 1).val = win1_7.index t (1 : Fin 2) * 4 + 1 * (j 1).val; omega)
  rw [ha, hj]

/-- A node row is in point `t`'s block of the result iff each coordinate is in the block's range. -/
theorem mem_blk1 (t : Fin cfg1.N) (i : S100000x4.Idx) :
    i ∈ ((cfg1.win 7).blk t).view.set ↔ ∀ a : Fin 2, win1_7.index t a * S10000x4.size a ≤ (i a).val ∧ (i a).val < win1_7.index t a * S10000x4.size a + S10000x4.size a := by
  show i ∈ ((View.whole main_v10).slice (win1_7.rect t)).set ↔ _
  rw [View.set_slice_whole, Rect.mem_set_unit]
  exact Iff.rfl

/-- Every node row is in the block of the point `row / 10000`. -/
theorem cover1 (i : S100000x4.Idx) : ∃ t : Fin cfg1.N, (cfg1.win 7).flush t = true ∧ i ∈ ((cfg1.win 7).blk t).view.set := by
  have hi0 : (i 0).val < 100000 := (i 0).isLt
  have hi1 : (i 1).val < 4 := (i 1).isLt
  have hN : grid1.N = 10 := N_1
  have ht : (i 0).val / 10000 < grid1.N := by rw [hN]; omega
  obtain ⟨e0, e1, e2, e3, -⟩ := idx1 ⟨(i 0).val / 10000, ht⟩
  refine ⟨⟨(i 0).val / 10000, ht⟩, flush1_7 _, ?_⟩
  rw [mem_blk1]
  intro a
  match a with
  | ⟨0, _⟩ =>
    show win1_7.index ⟨(i 0).val / 10000, ht⟩ (0 : Fin 2) * 10000 ≤ (i 0).val ∧ (i 0).val < win1_7.index ⟨(i 0).val / 10000, ht⟩ (0 : Fin 2) * 10000 + 10000
    rw [e2]; show (i 0).val / 10000 * 10000 ≤ (i 0).val ∧ (i 0).val < (i 0).val / 10000 * 10000 + 10000; omega
  | ⟨1, _⟩ =>
    show win1_7.index ⟨(i 0).val / 10000, ht⟩ (1 : Fin 2) * 4 ≤ (i 1).val ∧ (i 1).val < win1_7.index ⟨(i 0).val / 10000, ht⟩ (1 : Fin 2) * 4 + 4
    rw [e3]; omega

/-- After the node call its result array holds every node's class probabilities. -/
theorem final1 (c : Dev nD) : (dat1 V c).arrAt 7 cfg1.N
    = allNodeProbs (V c main_v3) (V c main_v4) (fun l => V c main_v7 (ix2 (0 : Fin 1) l)) (V c main_v5)
        (fun k => V c main_v8 (ix2 (0 : Fin 1) k)) (V c main_v6) (fun j => V c main_v9 (ix2 (0 : Fin 1) j)) :=
  (dat1 V c).arrAt_eq_of_cover 7 _ (fun t _ => flushed1_eq V c t) cover1

end Cert.KernelIdeal.Arrays

end
-- ==== Proof.KernelValue.lean ====
/-
  The program's result array as one function of its argument arrays.

  Between the two calls the host sums the scaled edge messages onto their destination nodes (a scatter-sum from the
  zero array, kept as the one operation it is), transposes the three weight matrices and reshapes each bias into a
  single row. The node call then finds those arrays and leaves every node's class probabilities computed from them.
  Read back to the launch memory: the edge arrays are untouched by the first call, whose result array holds every
  edge's scaled message; the weights and biases are untouched by both. A bias reshaped into a row reads, at column
  `l`, the bias at `l`.
-/
import proofs.«140631_j21861383536723_2_alg».proof.Proof.KernelRun
import proofs.«140631_j21861383536723_2_alg».proof.Proof.BlocksToArrays
import Idealize.ShloMosaic.Lib.StableHlo.Run
import Idealize.ShloMosaic.Lib.ValueLayout

set_option maxRecDepth 16384

noncomputable section

namespace Cert.KernelIdeal.WholeValue

open Cert.KernelIdeal Cert.KernelIdeal.Gen Idealize.ShloMosaic Idealize.ShloMosaic.TcCoe Idealize.SL.Sem Idealize.ShloMosaic.StableHlo
open Idealize.ShloMosaic.ValueIdx Cert.NodeScores

variable (m : (ℓ : Loc nD τ sig) → Buf (Elt Ideal) ℓ) (ρ : Dev nD → PrngReg)

/-- The aggregated node features: the scatter-sum, from the zero array, of every edge's scaled message onto the
    edge's destination node. -/
def aggregated (c : Dev nD) : S100000x16.Idx → EReal :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 (m ((c : Thread nD τ).loc main_arg4)))
    (edgeMessages (m ((c : Thread nD τ).loc main_arg2)) (m ((c : Thread nD τ).loc main_arg3)))

/-- An argument array is as launched when the first call ends: no window of that call writes it. -/
theorem W1_arg (c : Dev nD) (b : Ref sig .tc) (hb : ∀ w, Pipeline.arrRef spec0 w ≠ b) :
    W1 m ρ c (Proc.devRef .tc b) = m ((c : Thread nD τ).loc b) :=
  (W1_of_ne m ρ c b hb).trans rfl

/-- When the first call ends its result array holds every edge's scaled message. -/
theorem W1_messages (c : Dev nD) :
    W1 m ρ c (Proc.devRef .tc main_v0) = edgeMessages (m ((c : Thread nD τ).loc main_arg2)) (m ((c : Thread nD τ).loc main_arg3)) :=
  (W1_arr m ρ c 2).trans (Cert.KernelIdeal.Arrays.final0 (V0 m ρ) c)

/-- At the node call's entry its first operand holds the aggregated node features. -/
theorem entry_features (c : Dev nD) : V2 m ρ c main_v3 = aggregated m c := by
  show StableHlo.after hostOps1 (W1 m ρ c) (Proc.devRef .tc main_v3) = _
  after_results
  rw [W1_messages, W1_arg m ρ c main_arg4 (by decide)]
  rfl

/-- At the node call's entry the weight operands hold the transposed weight matrices. -/
theorem entry_w1 (c : Dev nD) : V2 m ρ c main_v4 = transpose S16x128 [1, 0] (m ((c : Thread nD τ).loc main_arg9)) transposes_S128x16_S16x128_1_0 := by
  show StableHlo.after hostOps1 (W1 m ρ c) (Proc.devRef .tc main_v4) = _
  after_results
  rw [W1_arg m ρ c main_arg9 (by decide)]

theorem entry_w2 (c : Dev nD) : V2 m ρ c main_v5 = transpose S128x32 [1, 0] (m ((c : Thread nD τ).loc main_arg11)) transposes_S32x128_S128x32_1_0 := by
  show StableHlo.after hostOps1 (W1 m ρ c) (Proc.devRef .tc main_v5) = _
  after_results
  rw [W1_arg m ρ c main_arg11 (by decide)]

theorem entry_w3 (c : Dev nD) : V2 m ρ c main_v6 = transpose S32x4 [1, 0] (m ((c : Thread nD τ).loc main_arg13)) transposes_S4x32_S32x4_1_0 := by
  show StableHlo.after hostOps1 (W1 m ρ c) (Proc.devRef .tc main_v6) = _
  after_results
  rw [W1_arg m ρ c main_arg13 (by decide)]

/-- At the node call's entry each bias operand is the bias as one row: column `l` of the row is entry `l`. -/
theorem entry_b1 (c : Dev nD) (l : Fin 128) : (V2 m ρ c main_v7 : S1x128.Idx → EReal) (ix2 (0 : Fin 1) l) = ((m ((c : Thread nD τ).loc main_arg10)) : S128.Idx → EReal) (ix1 l) := by
  have e : V2 m ρ c main_v7 = shapeCast S1x128 (m ((c : Thread nD τ).loc main_arg10)) shapeCasts_S128_S1x128 := by
    show StableHlo.after hostOps1 (W1 m ρ c) (Proc.devRef .tc main_v7) = _
    after_results
    rw [W1_arg m ρ c main_arg10 (by decide)]
    rfl
  rw [e]
  exact shapeCast_a_1a_apply _ shapeCasts_S128_S1x128 0 l

theorem entry_b2 (c : Dev nD) (k : Fin 32) : (V2 m ρ c main_v8 : S1x32.Idx → EReal) (ix2 (0 : Fin 1) k) = ((m ((c : Thread nD τ).loc main_arg12)) : S32.Idx → EReal) (ix1 k) := by
  have e : V2 m ρ c main_v8 = shapeCast S1x32 (m ((c : Thread nD τ).loc main_arg12)) shapeCasts_S32_S1x32 := by
    show StableHlo.after hostOps1 (W1 m ρ c) (Proc.devRef .tc main_v8) = _
    after_results
    rw [W1_arg m ρ c main_arg12 (by decide)]
    rfl
  rw [e]
  exact shapeCast_a_1a_apply _ shapeCasts_S32_S1x32 0 k

theorem entry_b3 (c : Dev nD) (j : Fin 4) : (V2 m ρ c main_v9 : S1x4.Idx → EReal) (ix2 (0 : Fin 1) j) = ((m ((c : Thread nD τ).loc main_arg14)) : S4.Idx → EReal) (ix1 j) := by
  have e : V2 m ρ c main_v9 = shapeCast S1x4 (m ((c : Thread nD τ).loc main_arg14)) shapeCasts_S4_S1x4 := by
    show StableHlo.after hostOps1 (W1 m ρ c) (Proc.devRef .tc main_v9) = _
    after_results
    rw [W1_arg m ρ c main_arg14 (by decide)]
    rfl
  rw [e]
  exact shapeCast_a_1a_apply _ shapeCasts_S4_S1x4 0 j

/-- The program's result: every node's class probabilities from the aggregated features, the transposed weights and
    the biases of the launch memory. -/
def result (c : Dev nD) : S100000x4.Idx → EReal :=
  allNodeProbs (aggregated m c)
    (transpose S16x128 [1, 0] (m ((c : Thread nD τ).loc main_arg9)) transposes_S128x16_S16x128_1_0) (fun l => ((m ((c : Thread nD τ).loc main_arg10)) : S128.Idx → EReal) (ix1 l))
    (transpose S128x32 [1, 0] (m ((c : Thread nD τ).loc main_arg11)) transposes_S32x128_S128x32_1_0) (fun k => ((m ((c : Thread nD τ).loc main_arg12)) : S32.Idx → EReal) (ix1 k))
    (transpose S32x4 [1, 0] (m ((c : Thread nD τ).loc main_arg13)) transposes_S4x32_S32x4_1_0) (fun j => ((m ((c : Thread nD τ).loc main_arg14)) : S4.Idx → EReal) (ix1 j))

/-- The result array's buffer at the last boundary holds `result`. -/
theorem W3_result_eq (c : Dev nD) : W3 m ρ c (Proc.devRef .tc main_v10) = result m c := by
  rw [Cert.KernelIdeal.RunValue.W3_result, Cert.KernelIdeal.Arrays.final1 (V2 m ρ) c, entry_features, entry_w1, entry_w2, entry_w3]
  unfold result
  have key : ∀ (A : (⟨2, ![100000, 16]⟩ : Shape).Idx → EReal) (T₁ : (⟨2, ![16, 128]⟩ : Shape).Idx → EReal)
      (T₂ : (⟨2, ![128, 32]⟩ : Shape).Idx → EReal) (T₃ : (⟨2, ![32, 4]⟩ : Shape).Idx → EReal)
      (b₁ b₁' : Fin 128 → EReal) (b₂ b₂' : Fin 32 → EReal) (b₃ b₃' : Fin 4 → EReal), b₁ = b₁' → b₂ = b₂' → b₃ = b₃' →
      allNodeProbs A T₁ b₁ T₂ b₂ T₃ b₃ = allNodeProbs A T₁ b₁' T₂ b₂' T₃ b₃' := by
    intro A T₁ T₂ T₃ b₁ b₁' b₂ b₂' b₃ b₃' h₁ h₂ h₃
    rw [h₁, h₂, h₃]
  exact key _ _ _ _ _ _ _ _ _ _ (funext (entry_b1 m ρ c)) (funext (entry_b2 m ρ c)) (funext (entry_b3 m ρ c))

/-- The run, read: every weakly fair execution terminates with the result array at `result` and the argument
    arrays as launched. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W3_result_eq m ρ c), (h c).2⟩) (Cert.KernelIdeal.RunValue.run_main m ρ)

end Cert.KernelIdeal.WholeValue

end
-- ==== Proof.LibHostRowFold.lean ====
/-
  A host reduction over the last axis of a matrix, read at a row.

  A one-operand reduction of an `[a, b]` matrix over its last axis with a commutative and associative body `op`
  (a maximum, a minimum) holds, at row `i`, the fold of `op` from the initial value over that row's entries
  `(i, f)`, `f < b`. Stated for any extents, any element type and any such body.
-/
import Idealize.ShloMosaic.Lib.ValueIdx
import Idealize.ShloMosaic.PureOps.Reduce

noncomputable section

namespace Cert.LibHostRowFold

open Idealize.ShloMosaic Idealize.ShloMosaic.ValueIdx

/-- The host's reduce over the last axis of an `[a, b]` matrix reads, at row `i`, the fold of the body from the
    initial value over the row's entries. -/
theorem hostReduce_lastAxis_apply {α : Type} {a b : ℕ} {u : Shape} (op : α → α → α) [Std.Commutative op] [Std.Associative op]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce op x init h' hu (ix1 i)
      = (Finset.univ : Finset (Fin b)).fold op (init (Shape.Idx.first hu)) (fun f : Fin b => x (ix2 i f)) := by
  refine (Host.reduce_eq_fold_single op x init h' h hu (ix1 i)).trans ?_
  refine congrArg (fun g => (Finset.univ : Finset (Fin b)).fold op (init (Shape.Idx.first hu)) g) ?_
  funext f
  exact congrArg x (funext fun d => Fin.ext (by
    match d with
    | ⟨0, _⟩ => rfl
    | ⟨1, _⟩ => rfl))

end Cert.LibHostRowFold

end
-- ==== Proof.RefScores.lean ====
/-
  The reference's result, read row by row.

  The reference computes on whole arrays what `NodeScores` describes for one node: the aggregated node features
  `A` (the scatter-sum of the scaled edge messages, never opened here), three products with the transposed weights,
  each followed by its bias spread over the rows, a rectifier after the first, and the softmax of each row's four
  scores. Read at node `r` and class `j`, every product is the sum over its contracted axis of row `r` of the left
  operand against a column of the right, every spread bias reads its one entry, the row maximum is the fold over the
  row's four scores and the row sum their sum from zero. So the result at `(r, j)` is `nodeProbs` of row `r` of `A`.
-/
import proofs.«140631_j21861383536723_2_alg».proof.Proof.Gen.ReferenceIdeal.Read
import proofs.«140631_j21861383536723_2_alg».proof.Proof.NodeScores
import proofs.«140631_j21861383536723_2_alg».proof.Proof.LibHostRowFold

noncomputable section

open scoped BigOperators

namespace Cert.ReferenceIdeal.RefValue

open Cert.ReferenceIdeal Cert.ReferenceIdeal.Gen Cert.ReferenceIdeal.Read Idealize.ShloMosaic Idealize.ShloMosaic.ValueIdx Cert.NodeScores

variable (x2 : (⟨S3200000x16, .f32⟩ : BufTy).Contents (Elt Ideal)) (x3 : (⟨S3200000x1, .f32⟩ : BufTy).Contents (Elt Ideal)) (x4 : (⟨S3200000, .i32⟩ : BufTy).Contents (Elt Ideal)) (x9 : (⟨S128x16, .f32⟩ : BufTy).Contents (Elt Ideal)) (x10 : (⟨S128, .f32⟩ : BufTy).Contents (Elt Ideal)) (x11 : (⟨S32x128, .f32⟩ : BufTy).Contents (Elt Ideal)) (x12 : (⟨S32, .f32⟩ : BufTy).Contents (Elt Ideal)) (x13 : (⟨S4x32, .f32⟩ : BufTy).Contents (Elt Ideal)) (x14 : (⟨S4, .f32⟩ : BufTy).Contents (Elt Ideal))

/-- The rectified first layer at node `r`, unit `l`. -/
theorem hidden_apply (r : Fin 100000) (l : Fin 128) :
    val_main_v21 (F := Ideal) x2 x3 x4 x9 x10 (ix2 r l)
      = hiddenUnits (fun p => val_main_v15 (F := Ideal) x2 x3 x4 (ix2 r p)) (val_main_v16 (F := Ideal) x9) (fun l => x10 (ix1 l)) l := by
  have el : ∀ k : Fin 16, lidx_main_v17 (ix2 r l) k = ix2 r k := fun k => funext fun a => Fin.ext (by
    match a with
    | ⟨0, _⟩ => rfl
    | ⟨1, _⟩ => rfl)
  have er : ∀ k : Fin 16, ridx_main_v17 (ix2 r l) k = ix2 k l := fun k => funext fun a => Fin.ext (by
    match a with
    | ⟨0, _⟩ => rfl
    | ⟨1, _⟩ => rfl)
  have eb : idx_main_v18 (idx_main_v19 (ix2 r l)) = ix1 l := funext fun a => Fin.ext (by
    match a with
    | ⟨0, _⟩ => rfl)
  rw [val_main_v21_apply, val_main_v20_apply, val_main_v17_apply, val_main_v19_apply, val_main_v18_apply, val_main_call1_v0_apply,
    val_main_call1_cst_apply, eb]
  simp only [el, er]
  rfl

/-- The second layer at node `r`, unit `k`. -/
theorem middle_apply (r : Fin 100000) (k : Fin 32) :
    val_main_v26 (F := Ideal) x2 x3 x4 x9 x10 x11 x12 (ix2 r k)
      = middleUnits (fun l => val_main_v21 (F := Ideal) x2 x3 x4 x9 x10 (ix2 r l)) (val_main_v22 (F := Ideal) x11) (fun k => x12 (ix1 k)) k := by
  have el : ∀ l : Fin 128, lidx_main_v23 (ix2 r k) l = ix2 r l := fun l => funext fun a => Fin.ext (by
    match a with
    | ⟨0, _⟩ => rfl
    | ⟨1, _⟩ => rfl)
  have er : ∀ l : Fin 128, ridx_main_v23 (ix2 r k) l = ix2 l k := fun l => funext fun a => Fin.ext (by
    match a with
    | ⟨0, _⟩ => rfl
    | ⟨1, _⟩ => rfl)
  have eb : idx_main_v24 (idx_main_v25 (ix2 r k)) = ix1 k := funext fun a => Fin.ext (by
    match a with
    | ⟨0, _⟩ => rfl)
  rw [val_main_v26_apply, val_main_v23_apply, val_main_v25_apply, val_main_v24_apply, eb]
  simp only [el, er]
  rfl

/-- The class scores at node `r`, class `j`. -/
theorem scores_apply (r : Fin 100000) (j : Fin 4) :
    val_main_v31 (F := Ideal) x2 x3 x4 x9 x10 x11 x12 x13 x14 (ix2 r j)
      = classScores (fun k => val_main_v26 (F := Ideal) x2 x3 x4 x9 x10 x11 x12 (ix2 r k)) (val_main_v27 (F := Ideal) x13) (fun j => x14 (ix1 j)) j := by
  have el : ∀ k : Fin 32, lidx_main_v28 (ix2 r j) k = ix2 r k := fun k => funext fun a => Fin.ext (by
    match a with
    | ⟨0, _⟩ => rfl
    | ⟨1, _⟩ => rfl)
  have er : ∀ k : Fin 32, ridx_main_v28 (ix2 r j) k = ix2 k j := fun k => funext fun a => Fin.ext (by
    match a with
    | ⟨0, _⟩ => rfl
    | ⟨1, _⟩ => rfl)
  have eb : idx_main_v29 (idx_main_v30 (ix2 r j)) = ix1 j := funext fun a => Fin.ext (by
    match a with
    | ⟨0, _⟩ => rfl)
  rw [val_main_v31_apply, val_main_v28_apply, val_main_v30_apply, val_main_v29_apply, eb]
  simp only [el, er]
  rfl

/-- The spread-back row maximum at node `r` is `topScore` of the node's four scores, whatever the class. -/
theorem top_apply (r : Fin 100000) (j : Fin 4) :
    val_main_v36 (F := Ideal) x2 x3 x4 x9 x10 x11 x12 x13 x14 (ix2 r j) = topScore (fun f => val_main_v31 (F := Ideal) x2 x3 x4 x9 x10 x11 x12 x13 x14 (ix2 r f)) := by
  have e35 : idx_main_v35 (idx_main_v36 (ix2 r j)) = ix1 r := funext fun a => Fin.ext (by
    match a with
    | ⟨0, _⟩ => rfl)
  rw [val_main_v36_apply, val_main_v35_apply, e35, val_main_v34_apply, val_main_v33_apply, val_main_cst_1_apply]
  unfold topScore val_main_v32
  refine congrArg (fun u : EReal => max (Ideal.ofBits .f32 0xFF800000#32) u) ?_
  exact Cert.LibHostRowFold.hostReduce_lastAxis_apply (FloatOps.maximumf (F := Ideal) (φ := .f32)) _ _ reducesTo_S100000x4_S100000_d1
    (by decide) h_S_ r

/-- The reference's result at node `r`, class `j`: the softmax of the node's four scores. -/
theorem softmax_apply (r : Fin 100000) (j : Fin 4) :
    val_main_v42 (F := Ideal) x2 x3 x4 x9 x10 x11 x12 x13 x14 (ix2 r j) = softmax4 (fun f => val_main_v31 (F := Ideal) x2 x3 x4 x9 x10 x11 x12 x13 x14 (ix2 r f)) j := by
  have e38 : ∀ f : Fin 4, val_main_v38 (F := Ideal) x2 x3 x4 x9 x10 x11 x12 x13 x14 (ix2 r f)
      = Ideal.exp (val_main_v31 (F := Ideal) x2 x3 x4 x9 x10 x11 x12 x13 x14 (ix2 r f) - topScore (fun f => val_main_v31 (F := Ideal) x2 x3 x4 x9 x10 x11 x12 x13 x14 (ix2 r f))) := fun f => by
    rw [val_main_v38_apply, val_main_v37_apply, top_apply, Ideal.hostUnary_exp_def, Ideal.subf_def]
  have e40 : idx_main_v40 (idx_main_v41 (ix2 r j)) = ix1 r := funext fun a => Fin.ext (by
    match a with
    | ⟨0, _⟩ => rfl)
  have e39 : ∀ k : Fin 4, idx_main_v39 (ix1 r) k = ix2 r k := fun k => funext fun a => Fin.ext (by
    match a with
    | ⟨0, _⟩ => rfl
    | ⟨1, _⟩ => rfl)
  rw [val_main_v42_apply, val_main_v41_apply, val_main_v40_apply, e40, val_main_v39_apply, val_main_cst_2_apply]
  unfold softmax4
  simp only [e39, e38]
  show Ideal.div _ (Ideal.ofBits .f32 0x00000000#32 + _) = _
  rw [Ideal.ofBits_zero_f32, zero_add]

/-- The reference's result at node `r`, class `j`: one node's probabilities from row `r` of the aggregated features. -/
theorem result_apply (r : Fin 100000) (j : Fin 4) :
    val_main_v42 (F := Ideal) x2 x3 x4 x9 x10 x11 x12 x13 x14 (ix2 r j)
      = nodeProbs (fun p => val_main_v15 (F := Ideal) x2 x3 x4 (ix2 r p)) (val_main_v16 (F := Ideal) x9) (fun l => x10 (ix1 l))
          (val_main_v22 (F := Ideal) x11) (fun k => x12 (ix1 k)) (val_main_v27 (F := Ideal) x13) (fun j => x14 (ix1 j)) j := by
  rw [softmax_apply]
  unfold nodeProbs
  refine congrArg (fun z => softmax4 z j) (funext fun f => ?_)
  rw [scores_apply]
  refine congrArg (fun h => classScores h (val_main_v27 (F := Ideal) x13) (fun j => x14 (ix1 j)) f) (funext fun k => ?_)
  rw [middle_apply]
  exact congrArg (fun g => middleUnits g (val_main_v22 (F := Ideal) x11) (fun k => x12 (ix1 k)) k)
    (funext fun l => hidden_apply x2 x3 x4 x9 x10 r l)

/-- The reference's whole result: every node's probabilities. -/
theorem result_eq :
    val_main_v42 (F := Ideal) x2 x3 x4 x9 x10 x11 x12 x13 x14
      = allNodeProbs (val_main_v15 (F := Ideal) x2 x3 x4) (val_main_v16 (F := Ideal) x9) (fun l => x10 (ix1 l))
          (val_main_v22 (F := Ideal) x11) (fun k => x12 (ix1 k)) (val_main_v27 (F := Ideal) x13) (fun j => x14 (ix1 j)) := by
  funext i
  have hi : i = ix2 (⟨(i 0).val, idx2_lt0 i⟩ : Fin 100000) (⟨(i 1).val, idx2_lt1 i⟩ : Fin 4) := eq_ix2 i
  rw [hi]
  exact result_apply x2 x3 x4 x9 x10 x11 x12 x13 x14 _ _

/-- The scaled edge messages the reference scatters are `edgeMessages` of the two edge arrays. -/
theorem messages_eq : val_main_v12 (F := Ideal) x2 x3 = edgeMessages x2 x3 := by
  funext i
  have hi : i = ix2 (⟨(i 0).val, idx2_lt0 i⟩ : Fin 3200000) (⟨(i 1).val, idx2_lt1 i⟩ : Fin 16) := eq_ix2 i
  rw [hi, val_main_v12_apply, val_main_v11_apply, edgeMessages_apply]
  have e11 : idx_main_v11 (ix2 (⟨(i 0).val, idx2_lt0 i⟩ : Fin 3200000) (⟨(i 1).val, idx2_lt1 i⟩ : Fin 16))
      = ix2 (⟨(i 0).val, idx2_lt0 i⟩ : Fin 3200000) (0 : Fin 1) := funext fun a => Fin.ext (by
    match a with
    | ⟨0, _⟩ => rfl
    | ⟨1, _⟩ => rfl)
  rw [e11]
  rfl

end Cert.ReferenceIdeal.RefValue

end
-- ==== Proof.lean ====
/-
  A two-call graph-network head against its array-level reference, on the extended reals.

  The kernel program scales every edge's sixteen features by the edge's factor (first call, 250 blocks of edges),
  sums the scaled messages onto their destination nodes on the host, and runs a three-layer head with a row softmax
  over the aggregated node features (second call, 10 blocks of nodes). The reference does the same on whole arrays.
  Both results are one function of the argument arrays: every node's class probabilities `NodeScores.allNodeProbs`
  of the aggregated features, the transposed weights and the biases, where the aggregated features are the same
  scatter-sum, from the zero array and by the same destinations, of the same scaled messages
  `NodeScores.edgeMessages`. On the kernel's side a block of the result is that function on the block's rows and the
  blocks tile the arrays; on the reference's side each array operation is read at an index. No law of arithmetic is
  needed beyond reading a matrix product as a sum: both programs add and multiply in the same order, so the finiteness
  of the inputs is never used. The two unused inputs and their weights enter neither result.
-/
import proofs.«140631_j21861383536723_2_alg».proof.Defs
import proofs.«140631_j21861383536723_2_alg».proof.Proof.Gen.Kernel
import proofs.«140631_j21861383536723_2_alg».proof.Proof.Gen.Kernel.Skeleton
import proofs.«140631_j21861383536723_2_alg».proof.Proof.Gen.Kernel.Launch
import proofs.«140631_j21861383536723_2_alg».proof.Proof.Gen.Kernel.Points
import proofs.«140631_j21861383536723_2_alg».proof.Proof.Gen.Kernel.Frame
import proofs.«140631_j21861383536723_2_alg».proof.Proof.Gen.KernelIdeal
import proofs.«140631_j21861383536723_2_alg».proof.Proof.Gen.KernelIdeal.Skeleton
import proofs.«140631_j21861383536723_2_alg».proof.Proof.Gen.KernelIdeal.Launch
import proofs.«140631_j21861383536723_2_alg».proof.Proof.Gen.KernelIdeal.Points
import proofs.«140631_j21861383536723_2_alg».proof.Proof.Gen.KernelIdeal.Frame
import proofs.«140631_j21861383536723_2_alg».proof.Proof.Gen.ReferenceIdeal
import proofs.«140631_j21861383536723_2_alg».proof.Proof.Gen.ReferenceIdeal.Run
import proofs.«140631_j21861383536723_2_alg».proof.Proof.Gen.ReferenceIdeal.Read
import proofs.«140631_j21861383536723_2_alg».proof.Proof.Gen.Pre_finite_inputs
import proofs.«140631_j21861383536723_2_alg».proof.Proof.KernelValue
import proofs.«140631_j21861383536723_2_alg».proof.Proof.RefScores
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From the same launch contents the reference's result term is the kernel program's result: the aggregated node
    features are one scatter-sum of the same scaled messages, the transposed weights the same transposes, and each
    side is every node's class probabilities of them. -/
theorem reference_result (m : (ℓ : Loc Cert.KernelIdeal.nD Cert.KernelIdeal.τ Cert.KernelIdeal.sig) → Buf (Elt Ideal) ℓ) (c : Dev Cert.KernelIdeal.nD) :
    Cert.ReferenceIdeal.Read.val_main_v42 (F := Ideal)
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
      = Cert.KernelIdeal.WholeValue.result m c := by
  rw [Cert.ReferenceIdeal.RefValue.result_eq]
  unfold Cert.KernelIdeal.WholeValue.result Cert.KernelIdeal.WholeValue.aggregated Cert.ReferenceIdeal.Read.val_main_v15
  rw [Cert.ReferenceIdeal.RefValue.messages_eq]
  rfl

/-- Run from memories that agree on the arguments, the two idealized programs end with the same result array. -/
theorem algebraic : Cert.algebraic_KernelIdeal_ReferenceIdeal := by
  intro m ρ m' ρ' _ hagree
  refine ⟨fun c => Cert.KernelIdeal.WholeValue.result m c, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  obtain ⟨-, -, h2, h3, h4, -, -, -, -, h9, h10, h11, h12, h13, h14⟩ := hagree c
  rw [Cert.ReferenceIdeal.Read.val_main_v42_eq, h2, h3, h4, h9, h10, h11, h12, h13, h14]
  exact reference_result m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
